-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 29
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S50000x128, .bf16⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .bf16⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S50000x1, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageLayer.lean ====
/-
  One GraphSAGE layer with mean aggregation, written on the extended reals.

  A node v has a feature row x_v (128 numbers), the sum s_v of the feature rows of the sources of its incoming edges,
  and its in-degree d_v. Its output row is

      x_v · W_self  +  (s_v / max(d_v, 1)) · W_neigh  +  b,

  so the output's entry at column q is the sum over k of x_v[k] · W_self[k, q], plus the sum over k of
  (s_v[k] / max(d_v, 1)) · W_neigh[k, q], plus b[q]. `entry` is that one number as a function of the row of x, the row
  of s, the degree, the two weight columns and the bias entry; `layer` is the whole [50000, 128] array of them. The
  association of the three summands — (first + second) + bias — is the one both programs use, so nothing has to be
  reassociated and no entry has to be finite.
-/
import Idealize.ShloMosaic.PureOps.Ideal
import Idealize.ShloMosaic.Lib.ValueIdx

noncomputable section

open scoped BigOperators

namespace SageLayer

open Idealize.ShloMosaic Idealize.ShloMosaic.ValueIdx

/-- The float32 word of 1, as an extended real: the floor put under the in-degree before dividing. -/
abbrev one : EReal := Ideal.ofBits .f32 0x3F800000#32

/-- One output entry from the node's own row, its neighbour-sum row, its in-degree, the two weight columns and the bias
    entry: x · w_self + (s / max(d, 1)) · w_neigh + b. -/
def entry (xrow srow : Fin 128 → EReal) (d : EReal) (wself wneigh : Fin 128 → EReal) (bq : EReal) : EReal :=
  ((∑ k : Fin 128, xrow k * wself k) + ∑ k : Fin 128, Ideal.div (srow k) (max d one) * wneigh k) + bq

/-- The layer's output array: entry (v, q) from row v of the features and of the neighbour sums, the degree of v,
    column q of both weight matrices and entry q of the bias. -/
def layer (x s : (⟨2, ![50000, 128]⟩ : Shape).Idx → EReal) (deg : Fin 50000 → EReal)
    (wself wneigh : (⟨2, ![128, 128]⟩ : Shape).Idx → EReal) (b : (⟨1, ![128]⟩ : Shape).Idx → EReal) :
    (⟨2, ![50000, 128]⟩ : Shape).Idx → EReal :=
  fun i => entry (fun k => x (ix2 (i 0) k)) (fun k => s (ix2 (i 0) k)) (deg (i 0))
    (fun k => wself (ix2 k (i 1))) (fun k => wneigh (ix2 k (i 1))) (b (ix1 (i 1)))

end SageLayer

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.KernelEntry.lean ====
/-
  What the kernel's body computes for one block of 5000 nodes, read at one entry.

  The body loads the block's degree column d [5000, 1], neighbour-sum rows s [5000, 128] and feature rows x [5000, 128],
  the two weight matrices and the bias, and stores

      (x · W_self + (s / max(d, 1)) · W_neigh) + b,

  the two products as matrix products into a zero accumulator after a change of float format that is the identity on
  the extended reals. At entry (p, q) a matrix product is the sum over the contracted coordinate, the degree column
  broadcast along the row reads its entry p, and the bias laid as a row and broadcast down the rows reads its entry q:
  the stored value is `SageLayer.entry` of row p of x and of s, the degree of p, column q of both weights and b[q].
-/
import proofs.«111514_j12893491822859_2_alg».proof.Proof.Gen.KernelIdeal.Skeleton
import proofs.«111514_j12893491822859_2_alg».proof.Proof.SageLayer
import proofs.«111514_j12893491822859_2_alg».proof.Proof.LibKeepdims
import proofs.«111514_j12893491822859_2_alg».proof.Proof.LibPlainMatmul
import Idealize.ShloMosaic.Lib.ValueLayout
import Idealize.ShloMosaic.Lib.Pipeline.Value
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- The body's two matrix products have the plain dimension numbers: rows by columns, contracted on the 128 inner
    coordinates. -/
theorem dot_plain : dot_S5000x128_S128x128_S5000x128_1_0_0_1_n_n = DotDims.plain 5000 128 128 := rfl

/-- The quotient the second product multiplies, at (p, k): the neighbour sum's entry over the degree of p floored at 1. -/
theorem mean_apply (d : Vec Ideal S5000x1 .f32) (s : Vec Ideal S5000x128 .f32) (p : Fin 5000) (k : Fin 128) :
    divf (F := Ideal) (φ := .f32) (shapeCast S5000x128 s shapeCasts_S5000x128_S5000x128)
        (broadcastTo S5000x128 (maximumf (F := Ideal) (φ := .f32) (shapeCast S5000x1 d shapeCasts_S5000x1_S5000x1)
          (broadcast S5000x1 (Scalar.ofBits (F := Ideal) .f32 0x3F800000#32))) broadcasts_S5000x1_S5000x128) (ix2 p k)
      = Ideal.div (s (ix2 p k)) (max (d (ix2 p 0)) SageLayer.one) := by
  rw [divf_apply, Keepdims.bcast_col_apply, maximumf_apply, shapeCast_self, shapeCast_self]
  rfl

/-- The bias laid as a row [1, 128] and broadcast down the 5000 rows reads, at (p, q), its entry q. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- THE BODY'S STORED VALUE at (p, q). -/
theorem pay_apply (d : Vec Ideal S5000x1 .f32) (s x : Vec Ideal S5000x128 .f32) (ws wn : Vec Ideal S128x128 .f32)
    (b : Vec Ideal S128 .f32) (p : Fin 5000) (q : Fin 128) :
    k0_pay1 (F := Ideal) d s x ws wn b (ix2 p q)
      = SageLayer.entry (fun k => x (ix2 p k)) (fun k => s (ix2 p k)) (d (ix2 p 0))
          (fun k => ws (ix2 k q)) (fun k => wn (ix2 k q)) (b (ix1 q)) := by
  unfold k0_pay1 SageLayer.entry
  dsimp only
  rw [addf_apply, addf_apply, bias_apply, dot_plain, PlainMatmul.plainMatmul_apply, PlainMatmul.plainMatmul_apply]
  refine congrArg₂ (· + ·) (congrArg₂ (· + ·) rfl (Finset.sum_congr rfl fun k _ => ?_)) rfl
  exact congrArg (· * wn (ix2 k q)) (mean_apply d s p k)

end Cert.KernelIdeal.Entry

end
-- ==== Proof.HostPrefix.lean ====
/-
  What the host computes before the fused kernel is launched: the neighbour sums and the in-degrees.

  From the features x [50000, 128] and the edge lists src, dst [800000] the host builds
    * the neighbour sums: row e of x[src] is gathered for every edge e (a negative source index wrapped by adding
      50000 first) and added into row dst[e] of an array of zeros;
    * the in-degrees: a one is added at dst[e] into a vector of zeros, for every edge e; the vector is then viewed as
      a column [50000, 1].
  The gather reads a copy of x narrowed to a shorter float format and widens what it gathered; on the extended reals
  both changes of format are the identity, and a gather only chooses which entry it returns, so the gathered rows are
  rows of x itself. `neighSum` and `degree` name the two arrays as functions of the arguments, and the two theorems
  say the kernel's second and third operands hold them when the kernel starts.
-/
import proofs.«111514_j12893491822859_2_alg».proof.Proof.Gen.KernelIdeal.Frame
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.SL.Sem

/-- The row each edge gathers: its source index, wrapped by +50000 when negative, laid as a column of index vectors. -/
def rowIdx (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour sums: the gathered source rows added into their destination rows, from zeros. -/
def neighSum (x : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x (rowIdx src))

/-- The in-degrees: a one per edge added at its destination, from zeros. -/
def degree (dst : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

variable (m : (ℓ : Loc nD τ sig) → Buf (Elt Ideal) ℓ)

/-- When the kernel starts, its second operand holds the neighbour sums of the arguments. -/
theorem V_neighSum (c : Dev nD) :
    (V m c main_v11 : S50000x128.Idx → EReal)
      = neighSum (m ((c : Thread nD τ).loc main_arg0)) (m ((c : Thread nD τ).loc main_arg1)) (m ((c : Thread nD τ).loc main_arg2)) := by
  dsimp only [Gen.V, Gen.hostOps0]
  after_results
  rfl

/-- When the kernel starts, its third operand holds the in-degrees viewed as a column. -/
theorem V_degree (c : Dev nD) :
    (V m c main_v16 : S50000x1.Idx → EReal)
      = shapeCast S50000x1 (degree (m ((c : Thread nD τ).loc main_arg2))) shapeCasts_S50000_S50000x1 := by
  dsimp only [Gen.V, Gen.hostOps0]
  after_results
  rfl

end Cert.KernelIdeal.Prefix

end
-- ==== Proof.KernelArray.lean ====
/-
  From the kernel's blocks to its whole result array.

  The kernel runs over ten grid points; point t works on the 5000 nodes 5000·t … 5000·t + 4999. It is handed rows
  5000·t … of the features, of the neighbour sums and of the degree column, the two weight matrices whole and the bias
  whole, and writes rows 5000·t … of the result. So entry (p, q) of what point t writes is the layer's entry
  (5000·t + p, q) of the arrays the kernel was launched with: a block of rows of the layer is the layer of those rows,
  because an output row depends on its own node's rows only. The ten row blocks cover the 50000 rows — row r lies in
  block r / 5000 — so after the run the result array is the layer of the launch arrays, and those are the arguments,
  their neighbour sums and their in-degrees.
-/
import proofs.«111514_j12893491822859_2_alg».proof.Proof.Gen.KernelIdeal.Value
import proofs.«111514_j12893491822859_2_alg».proof.Proof.KernelEntry
import proofs.«111514_j12893491822859_2_alg».proof.Proof.HostPrefix

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

/-! ## One block of rows of the layer -/

/-- A block of 5000 rows starting at row r0: if the loaded blocks are rows r0 … of the arrays X, S, D, the body's
    stored value at j is the layer of X, S, D at the entry i that j is inside the block. -/
theorem block_eq (d : Vec Ideal S5000x1 .f32) (s x : Vec Ideal S5000x128 .f32) (ws wn : Vec Ideal S128x128 .f32)
    (b : Vec Ideal S128 .f32) (X S : S50000x128.Idx → EReal) (D : S50000x1.Idx → EReal)
    (Ws Wn : S128x128.Idx → EReal) (B : S128.Idx → EReal) (r0 : Nat)
    (hx : ∀ (p : Fin 5000) (k : Fin 128) (v : Fin 50000), v.val = r0 + p.val → x (ix2 p k) = X (ix2 v k))
    (hs : ∀ (p : Fin 5000) (k : Fin 128) (v : Fin 50000), v.val = r0 + p.val → s (ix2 p k) = S (ix2 v k))
    (hd : ∀ (p : Fin 5000) (v : Fin 50000), v.val = r0 + p.val → d (ix2 p 0) = D (ix2 v 0))
    (hws : ∀ (k q : Fin 128), ws (ix2 k q) = Ws (ix2 k q)) (hwn : ∀ (k q : Fin 128), wn (ix2 k q) = Wn (ix2 k q))
    (hb : ∀ q : Fin 128, b (ix1 q) = B (ix1 q))
    (j : S5000x128.Idx) (i : S50000x128.Idx) (hi0 : (i 0).val = r0 + (j 0).val) (hi1 : (i 1).val = (j 1).val) :
    k0_pay1 (F := Ideal) d s x ws wn b j = SageLayer.layer X S (fun v => D (ix2 v 0)) Ws Wn B i := by
  obtain ⟨p, q, rfl⟩ : ∃ (p : Fin 5000) (q : Fin 128), j = ix2 p q := ⟨j 0, j 1, eq_ix2 j⟩
  have e1 : i 1 = q := Fin.ext hi1
  rw [Entry.pay_apply]
  unfold SageLayer.layer
  rw [e1, funext fun k => hx p k (i 0) hi0, funext fun k => hs p k (i 0) hi0, hd p (i 0) hi0,
    funext fun k => hws k q, funext fun k => hwn k q, hb q]

/-! ## The windows' index maps -/

theorem hz : (![0, 0] : Fin 2 → Nat) = fun _ => 0 := funext fun a => by fin_cases a <;> rfl

theorem hz1 : (![0] : Fin 1 → Nat) = fun _ => 0 := funext fun a => by fin_cases a; rfl

/-- The printed index maps over the ten points: the three row-blocked operands move with the result's row block, the
    weights and the bias stay at block 0, and every block sits at column block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 9 :=
  (by decide +kernel : ∀ t : Fin grid0.N, _)

/-- Every one of the ten row blocks is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-! ## What a point computes, for any six arrays -/

/-- Whatever six arrays the operands are, the body's stored value on their blocks at point t is block t of rows of the
    layer of the arrays: the three row-blocked operands' blocks are rows 5000·t … of their arrays, the weights' and the
    bias's blocks are the whole arrays, and entry j of the result block is entry (5000·t + row of j, column of j). -/
theorem point_eq (t : Fin cfg0.N) (A0 A1 : S50000x128.Idx → EReal) (A2 : S50000x1.Idx → EReal)
    (A3 A4 : S128x128.Idx → EReal) (A5 : S128.Idx → EReal) :
    (cfg0.win 6).cut (grid0.coords t)
        (k0_pay1 (F := Ideal) (((cfg0.win 2).blk t).view.read (Elt Ideal) A2) (((cfg0.win 1).blk t).view.read (Elt Ideal) A1)
          (((cfg0.win 0).blk t).view.read (Elt Ideal) A0) (((cfg0.win 3).blk t).view.read (Elt Ideal) A3)
          (((cfg0.win 4).blk t).view.read (Elt Ideal) A4) (((cfg0.win 5).blk t).view.read (Elt Ideal) A5))
      = ((cfg0.win 6).blk t).view.read (Elt Ideal) (SageLayer.layer A0 A1 (fun v => A2 (ix2 v 0)) A3 A4 A5) := by
  obtain ⟨a0, a0', a1, a1', a2, a2', a3, a3', a4, a4', a5, a6', a6⟩ := idx_facts t
  funext j
  show k0_pay1 (F := Ideal) (((cfg0.win 2).blk t).view.read (Elt Ideal) A2) (((cfg0.win 1).blk t).view.read (Elt Ideal) A1)
      (((cfg0.win 0).blk t).view.read (Elt Ideal) A0) (((cfg0.win 3).blk t).view.read (Elt Ideal) A3)
      (((cfg0.win 4).blk t).view.read (Elt Ideal) A4) (((cfg0.win 5).blk t).view.read (Elt Ideal) A5) j
    = SageLayer.layer A0 A1 (fun v => A2 (ix2 v 0)) A3 A4 A5 (((cfg0.win 6).blk t).view.emb j)
  refine block_eq (((cfg0.win 2).blk t).view.read (Elt Ideal) A2) (((cfg0.win 1).blk t).view.read (Elt Ideal) A1)
    (((cfg0.win 0).blk t).view.read (Elt Ideal) A0) (((cfg0.win 3).blk t).view.read (Elt Ideal) A3)
    (((cfg0.win 4).blk t).view.read (Elt Ideal) A4) (((cfg0.win 5).blk t).view.read (Elt Ideal) A5)
    A0 A1 A2 A3 A4 A5 (win0_6.index t (0 : Fin 2) * 5000) ?_ ?_ ?_ ?_ ?_ ?_ j (((cfg0.win 6).blk t).view.emb j) ?_ ?_
  · intro p k v hv
    show A0 (((cfg0.win 0).blk t).view.emb (ix2 p k)) = A0 (ix2 v k)
    refine congrArg A0 (funext fun a => Fin.ext ?_)
    match a with
    | ⟨0, _⟩ => show win0_0.index t (0 : Fin 2) * 5000 + 1 * p.val = v.val; omega
    | ⟨1, _⟩ => show win0_0.index t (1 : Fin 2) * 128 + 1 * k.val = k.val; omega
  · intro p k v hv
    show A1 (((cfg0.win 1).blk t).view.emb (ix2 p k)) = A1 (ix2 v k)
    refine congrArg A1 (funext fun a => Fin.ext ?_)
    match a with
    | ⟨0, _⟩ => show win0_1.index t (0 : Fin 2) * 5000 + 1 * p.val = v.val; omega
    | ⟨1, _⟩ => show win0_1.index t (1 : Fin 2) * 128 + 1 * k.val = k.val; omega
  · intro p v hv
    show A2 (((cfg0.win 2).blk t).view.emb (ix2 p 0)) = A2 (ix2 v 0)
    refine congrArg A2 (funext fun a => Fin.ext ?_)
    match a with
    | ⟨0, _⟩ => show win0_2.index t (0 : Fin 2) * 5000 + 1 * p.val = v.val; omega
    | ⟨1, _⟩ => show win0_2.index t (1 : Fin 2) * 1 + 1 * 0 = 0; omega
  · intro k q
    show A3 (((cfg0.win 3).blk t).view.emb (ix2 k q)) = A3 (ix2 k q)
    refine congrArg A3 (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro k q
    show A4 (((cfg0.win 4).blk t).view.emb (ix2 k q)) = A4 (ix2 k q)
    refine congrArg A4 (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · intro q
    show A5 (((cfg0.win 5).blk t).view.emb (ix1 q)) = A5 (ix1 q)
    refine congrArg A5 (funext fun a => Fin.ext ?_)
    match a with
    | ⟨0, _⟩ => show win0_5.index t (0 : Fin 1) * 128 + 1 * q.val = q.val; omega
  · show win0_6.index t (0 : Fin 2) * 5000 + 1 * (j 0).val = win0_6.index t (0 : Fin 2) * 5000 + (j 0).val; omega
  · show win0_6.index t (1 : Fin 2) * 128 + 1 * (j 1).val = (j 1).val; omega

/-! ## What a point writes back -/

variable (m : (ℓ : Loc nD τ sig) → Buf (Elt Ideal) ℓ) (ρ : Dev nD → PrngReg)

/-- The result array as a function of the six arrays the kernel is launched with. -/
def G (c : Dev nD) : S50000x128.Idx → EReal :=
  SageLayer.layer (V m c (Pipeline.arrRef spec0 0)) (V m c (Pipeline.arrRef spec0 1))
    (fun v => V m c (Pipeline.arrRef spec0 2) (ix2 v 0))
    (V m c (Pipeline.arrRef spec0 3)) (V m c (Pipeline.arrRef spec0 4)) (V m c (Pipeline.arrRef spec0 5))

/-- WHAT POINT t WRITES BACK is its block of rows of `G`. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz]
  simp only [View.ld_unit_zero (S := S5000x128) hz, View.ld_unit_zero (S := S5000x1) hz,
    View.ld_unit_zero (S := S128x128) hz, View.ld_unit_zero (S := S128) hz1]
  unfold iblk G
  exact point_eq t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-! ## The ten blocks cover the array -/

/-- An index of the array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v17).slice (win0_6.rect t)).set ↔ _
  rw [View.set_slice_whole, Rect.mem_set_unit]
  exact Iff.rfl

/-- Row r of the array lies in the block of the point whose row block is r / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE RESULT ARRAY after the run is `G`. -/
theorem final (c : Dev nD) : (dats m 0 c).arrAt 6 cfg0.N = G m c :=
  (dats m 0 c).arrAt_eq_of_cover 6 (G m c) (fun t _ => flushed_eq m c t) cover

/-! ## In terms of the arguments -/

/-- The arrays the kernel is launched with are the arguments, their neighbour sums and their in-degrees as a column;
    the column's entry (v, 0) is the degree of v. -/
theorem G_eq (c : Dev nD) :
    G m c = SageLayer.layer (m ((c : Thread nD τ).loc main_arg0))
      (Prefix.neighSum (m ((c : Thread nD τ).loc main_arg0)) (m ((c : Thread nD τ).loc main_arg1)) (m ((c : Thread nD τ).loc main_arg2)))
      (fun v => Prefix.degree (m ((c : Thread nD τ).loc main_arg2)) (ix1 v))
      (m ((c : Thread nD τ).loc main_arg3)) (m ((c : Thread nD τ).loc main_arg4)) (m ((c : Thread nD τ).loc main_arg5)) := by
  have h0 : (V m c (Pipeline.arrRef spec0 0) : S50000x128.Idx → EReal) = m ((c : Thread nD τ).loc main_arg0) := V_main_arg0 m c
  have h1 : (V m c (Pipeline.arrRef spec0 1) : S50000x128.Idx → EReal)
      = Prefix.neighSum (m ((c : Thread nD τ).loc main_arg0)) (m ((c : Thread nD τ).loc main_arg1)) (m ((c : Thread nD τ).loc main_arg2)) :=
    Prefix.V_neighSum m c
  have h2 : (V m c (Pipeline.arrRef spec0 2) : S50000x1.Idx → EReal)
      = shapeCast S50000x1 (Prefix.degree (m ((c : Thread nD τ).loc main_arg2))) shapeCasts_S50000_S50000x1 := Prefix.V_degree m c
  have h3 : (V m c (Pipeline.arrRef spec0 3) : S128x128.Idx → EReal) = m ((c : Thread nD τ).loc main_arg3) := V_main_arg3 m c
  have h4 : (V m c (Pipeline.arrRef spec0 4) : S128x128.Idx → EReal) = m ((c : Thread nD τ).loc main_arg4) := V_main_arg4 m c
  have h5 : (V m c (Pipeline.arrRef spec0 5) : S128.Idx → EReal) = m ((c : Thread nD τ).loc main_arg5) := V_main_arg5 m c
  unfold G
  rw [h0, h1, h2, h3, h4, h5]
  exact congrArg
    (fun f => SageLayer.layer (m ((c : Thread nD τ).loc main_arg0))
      (Prefix.neighSum (m ((c : Thread nD τ).loc main_arg0)) (m ((c : Thread nD τ).loc main_arg1)) (m ((c : Thread nD τ).loc main_arg2)))
      f (m ((c : Thread nD τ).loc main_arg3)) (m ((c : Thread nD τ).loc main_arg4)) (m ((c : Thread nD τ).loc main_arg5)))
    (funext fun v => Keepdims.cast_col_apply (Prefix.degree (m ((c : Thread nD τ).loc main_arg2))) shapeCasts_S50000_S50000x1 v 0)

/-- THE KERNEL'S RUN, read: every weakly fair execution ends with the result array at the layer of the arguments, of
    their neighbour sums and of their in-degrees, and the arguments unchanged. -/
theorem run : θ_run defs (onTc (τ := τ) (main (F := Ideal))) ⟨m, fun _ => 0, ρ⟩ fun r => ∀ c : Dev nD,
      r.2.mem ((c : Thread nD τ).loc main_v17) = SageLayer.layer (m ((c : Thread nD τ).loc main_arg0))
        (Prefix.neighSum (m ((c : Thread nD τ).loc main_arg0)) (m ((c : Thread nD τ).loc main_arg1)) (m ((c : Thread nD τ).loc main_arg2)))
        (fun v => Prefix.degree (m ((c : Thread nD τ).loc main_arg2)) (ix1 v))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (G_eq m c)), (h c).2⟩)
    (Value.run_blocks m ρ)

end Cert.KernelIdeal.Array

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«111514_j12893491822859_2_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.ReferenceLayer.lean ====
/-
  The reference program's result, read at an index, is the layer.

  The reference forms the neighbour sums and the in-degrees with the same gather and scatter-adds as the kernel's host
  side, floors the degrees at 1, lays them as a column, broadcasts the column along the 128 features and divides; it
  then takes the two matrix products with the whole [50000, 128] arrays, adds them, and adds the bias laid as a row
  and broadcast down the rows. Read at (v, q): a product is the sum over the 128 contracted coordinates, the broadcast
  floored degree reads max(degree of v, 1), and the broadcast bias reads entry q — `SageLayer.layer` of the features,
  the neighbour sums, the degrees, the weights and the bias. The neighbour sums and the degrees are ANY two arrays
  here: nothing about which edges reach which node is used.
-/
import proofs.«111514_j12893491822859_2_alg».proof.Proof.Gen.ReferenceIdeal
import proofs.«111514_j12893491822859_2_alg».proof.Proof.SageLayer
import proofs.«111514_j12893491822859_2_alg».proof.Proof.LibPlainDot
import proofs.«111514_j12893491822859_2_alg».proof.Proof.LibHostReads

noncomputable section

open scoped BigOperators

namespace Cert.ReferenceIdeal.Layer

open Cert.ReferenceIdeal Cert.ReferenceIdeal.Gen Idealize.ShloMosaic Idealize.ShloMosaic.ValueIdx

/-- The reference's two matrix products have the plain dimension numbers: rows by columns, contracted on the 128 inner
    coordinates. -/
theorem dot_plain : dot_S50000x128_S128x128_S50000x128_1_0_0_1_n_n = DotDims.plain 50000 128 128 := rfl

/-- The host's quotient at an index is the quotient of the entries. -/
theorem hostDivf_apply {s : Shape} (a b : FVec Ideal s .f32) (j : s.Idx) : Host.divf a b j = Ideal.div (a j) (b j) := rfl

/-- The degrees floored at 1, laid as a column and broadcast along the features, read at (v, k): max(degree of v, 1). -/
theorem floor_apply (DEG : FVec Ideal S50000 .f32) (v : Fin 50000) (k : Fin 128) :
    broadcastInDim S50000x128 ![0, 1] bcast_S50000x1_S50000x128_0_1
      (broadcastInDim S50000x1 ![0] bcast_S50000_S50000x1_0
        (maximumf (F := Ideal) (φ := .f32) DEG
          (broadcastInDim S50000 ![] bcast_S_S50000 (constant (F := Ideal) S_ .f32 0x3F800000#32)))) (ix2 v k)
      = max (DEG (ix1 v)) SageLayer.one := by
  rw [HostReads.bcast_col_apply, HostReads.bcast_toCol_apply, maximumf_apply]
  rfl

/-- THE REFERENCE'S RESULT TERM, with any arrays NS and DEG where it has the neighbour sums and the in-degrees, is the
    layer of them. -/
theorem result_eq (x0 NS : FVec Ideal S50000x128 .f32) (DEG : FVec Ideal S50000 .f32)
    (x3 x4 : FVec Ideal S128x128 .f32) (x5 : FVec Ideal S128 .f32) :
    addf (F := Ideal) (φ := .f32)
        (addf (F := Ideal) (φ := .f32) (Host.dotGeneral dot_S50000x128_S128x128_S50000x128_1_0_0_1_n_n none x0 x3)
          (Host.dotGeneral dot_S50000x128_S128x128_S50000x128_1_0_0_1_n_n none
            (Host.divf NS (broadcastInDim S50000x128 ![0, 1] bcast_S50000x1_S50000x128_0_1
              (broadcastInDim S50000x1 ![0] bcast_S50000_S50000x1_0
                (maximumf (F := Ideal) (φ := .f32) DEG
                  (broadcastInDim S50000 ![] bcast_S_S50000 (constant (F := Ideal) S_ .f32 0x3F800000#32)))))) x4))
        (broadcastInDim S50000x128 ![0, 1] bcast_S1x128_S50000x128_0_1 (broadcastInDim S1x128 ![1] bcast_S128_S1x128_1 x5))
      = SageLayer.layer x0 NS (fun v => DEG (ix1 v)) x3 x4 x5 := by
  funext i
  obtain ⟨v, q, rfl⟩ : ∃ (v : Fin 50000) (q : Fin 128), i = ix2 v q := ⟨i 0, i 1, eq_ix2 i⟩
  unfold SageLayer.layer SageLayer.entry
  rw [addf_apply, addf_apply, dot_plain, PlainDot.plainDot_apply, PlainDot.plainDot_apply, HostReads.bcast_row_apply,
    HostReads.bcast_toRow_apply]
  refine congrArg₂ (· + ·) (congrArg₂ (· + ·) rfl (Finset.sum_congr rfl fun k _ => ?_)) rfl
  rw [hostDivf_apply, floor_apply]

end Cert.ReferenceIdeal.Layer

end
-- ==== Proof.lean ====
/-
  A GraphSAGE layer with mean aggregation, computed two ways, is one function on the extended reals.

  Both programs take node features x [50000, 128], edge lists src, dst [800000], weights W_self, W_neigh [128, 128]
  and a bias b [128]. Both first form, on the host and with the same operations, the neighbour sums s (row dst[e]
  collects row src[e] of x, for every edge e) and the in-degrees d (a one per edge at dst[e]). The reference then computes

      x · W_self + (s / max(d, 1)) · W_neigh + b

  with whole-array operations. The kernel gathers from a copy of x in a shorter float format and widens the result — the
  identity on the extended reals —, views d as a column, and hands x, s, d, the weights and the bias to a fused body
  that runs over ten blocks of 5000 nodes: it divides the block of s by the block of d floored at 1, takes both matrix
  products into zero accumulators (after format changes that again are the identity), adds them and adds the bias.

  At an entry (v, q) both are (Σ_k x[v,k]·W_self[k,q] + Σ_k (s[v,k] / max(d[v], 1))·W_neigh[k,q]) + b[q], summand for
  summand and in the same association, so no algebraic law is needed and no entry has to be finite: the precondition
  is never opened. What is proved by hand: the body's stored value at an entry (KernelEntry), the arrays the host hands
  the kernel (HostPrefix), that ten row blocks of the layer are the layer (KernelArray), and that the reference's
  whole-array term read at an entry is the same layer (ReferenceLayer). The kernel's and the reference's runs, and the
  three frames, are the generated modules'. The idealization rewrote nothing, so there is nothing to preserve.
-/
import proofs.«111514_j12893491822859_2_alg».proof.Defs
import proofs.«111514_j12893491822859_2_alg».proof.Proof.Gen.Kernel
import proofs.«111514_j12893491822859_2_alg».proof.Proof.Gen.Kernel.Skeleton
import proofs.«111514_j12893491822859_2_alg».proof.Proof.Gen.Kernel.Launch
import proofs.«111514_j12893491822859_2_alg».proof.Proof.Gen.Kernel.Points
import proofs.«111514_j12893491822859_2_alg».proof.Proof.Gen.Kernel.Frame
import proofs.«111514_j12893491822859_2_alg».proof.Proof.Gen.KernelIdeal
import proofs.«111514_j12893491822859_2_alg».proof.Proof.Gen.KernelIdeal.Skeleton
import proofs.«111514_j12893491822859_2_alg».proof.Proof.Gen.KernelIdeal.Launch
import proofs.«111514_j12893491822859_2_alg».proof.Proof.Gen.KernelIdeal.Points
import proofs.«111514_j12893491822859_2_alg».proof.Proof.Gen.KernelIdeal.Frame
import proofs.«111514_j12893491822859_2_alg».proof.Proof.Gen.ReferenceIdeal
import proofs.«111514_j12893491822859_2_alg».proof.Proof.Gen.KernelIdeal.Value
import proofs.«111514_j12893491822859_2_alg».proof.Proof.Gen.ReferenceIdeal.Run
import proofs.«111514_j12893491822859_2_alg».proof.Proof.Gen.Pre_finite_inputs
import proofs.«111514_j12893491822859_2_alg».proof.Proof.KernelArray
import proofs.«111514_j12893491822859_2_alg».proof.Proof.ReferenceLayer
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array and the reference's are the same layer: the
    kernel's by its run read block by block, the reference's by its whole-array term read at an index; the neighbour
    sums and the in-degrees are the same two arrays in both, built by the same host operations. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layer.result_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
